-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000x512 : Shape := ⟨2, ![320000, 512]⟩
abbrev S2x320000 : Shape := ⟨2, ![2, 320000]⟩
abbrev S320000 : Shape := ⟨1, ![320000]⟩
abbrev S512x512 : Shape := ⟨2, ![512, 512]⟩
abbrev S512x64 : Shape := ⟨2, ![512, 64]⟩
abbrev S_ : Shape := ⟨0, ![]⟩

class Facts : Prop where
  bcast_S_S320000x512 : S_.BroadcastsInDim S320000x512 (![] : Fin 0 → Fin S320000x512.rank)
  reducesTo_S320000x512_S_d0_1 : S320000x512.ReducesTo [0, 1] S_
  h_S_ : 0 < S_.numel
  bcast_S_S320000 : S_.BroadcastsInDim S320000 (![] : Fin 0 → Fin S320000.rank)
  reducesTo_S320000_S_d0 : S320000.ReducesTo [0] S_
  bcast_S_S512x512 : S_.BroadcastsInDim S512x512 (![] : Fin 0 → Fin S512x512.rank)
  reducesTo_S512x512_S_d0_1 : S512x512.ReducesTo [0, 1] S_
  bcast_S_S512x64 : S_.BroadcastsInDim S512x64 (![] : Fin 0 → Fin S512x64.rank)
  reducesTo_S512x64_S_d0_1 : S512x64.ReducesTo [0, 1] S_

variable [Facts]

def fn_part1 {F : FTy → Type} [FloatOps F] (main_arg5 : FVec F S512x64 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x64 .f32 := Host.absf main_arg5
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  main_v23

def fn {F : FTy → Type} [FloatOps F] (main_arg0 : FVec F S320000x512 .f32) (main_arg1 : IVec S2x320000 32) (main_arg2 : FVec F S320000 .f32) (main_arg3 : FVec F S512x512 .f32) (main_arg4 : FVec F S512x512 .f32) (main_arg5 : FVec F S512x64 .f32) : IVec S_ 1 :=
  let main_v0 : FVec F S320000x512 .f32 := Host.absf main_arg0
  let main_cst : FVec F S_ .f32 := constant S_ .f32 0x7F800000#32
  let main_v1 : FVec F S320000x512 .f32 := broadcastInDim S320000x512 ![] bcast_S_S320000x512 main_cst
  let main_v2 : IVec S320000x512 1 := cmpf .olt main_v0 main_v1
  let main_c : IVec S_ 1 := constantI S_ 1 1#1
  let main_v3 : IVec S_ 1 := (fun x v => Host.reduce IntOp.andi x v reducesTo_S320000x512_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_v13 main_v16
-- ==== Kernel.lean ====
abbrev S320000x512 : Shape := ⟨2, ![320000, 512]⟩
abbrev S2x320000 : Shape := ⟨2, ![2, 320000]⟩
abbrev S320000 : Shape := ⟨1, ![320000]⟩
abbrev S512x512 : Shape := ⟨2, ![512, 512]⟩
abbrev S512x64 : Shape := ⟨2, ![512, 64]⟩
abbrev S_ : Shape := ⟨0, ![]⟩
abbrev S512x128 : Shape := ⟨2, ![512, 128]⟩
abbrev S320000x1 : Shape := ⟨2, ![320000, 1]⟩
abbrev S320000x128 : Shape := ⟨2, ![320000, 128]⟩
abbrev S4000x512 : Shape := ⟨2, ![4000, 512]⟩
abbrev S4000x1 : Shape := ⟨2, ![4000, 1]⟩
abbrev S4000x128 : Shape := ⟨2, ![4000, 128]⟩
abbrev S1000x512 : Shape := ⟨2, ![1000, 512]⟩
abbrev S1000x128 : Shape := ⟨2, ![1000, 128]⟩
abbrev S1000x1 : Shape := ⟨2, ![1000, 1]⟩
abbrev S320000x64 : Shape := ⟨2, ![320000, 64]⟩
abbrev S1x320000 : Shape := ⟨2, ![1, 320000]⟩
abbrev S10000x64 : Shape := ⟨2, ![10000, 64]⟩

abbrev nBuf : Space → Nat
  | .hbm => 21
  | .vmem => 9
  | .smem => 0
  | _ => 0

abbrev bufTy : (tb : Table) → Fin (tcTables nBuf tb) → BufTy
  | .hbm, ⟨0, _⟩ => ⟨S320000x512, .f32⟩
  | .hbm, ⟨1, _⟩ => ⟨S2x320000, .i32⟩
  | .hbm, ⟨2, _⟩ => ⟨S320000, .f32⟩
  | .hbm, ⟨3, _⟩ => ⟨S512x512, .f32⟩
  | .hbm, ⟨4, _⟩ => ⟨S512x512, .f32⟩
  | .hbm, ⟨5, _⟩ => ⟨S512x64, .f32⟩
  | .hbm, ⟨6, _⟩ => ⟨S512x512, .bf16⟩
  | .hbm, ⟨7, _⟩ => ⟨S512x512, .bf16⟩
  | .hbm, ⟨8, _⟩ => ⟨S_, .i32⟩
  | .hbm, ⟨9, _⟩ => ⟨S_, .f32⟩
  | .hbm, ⟨10, _⟩ => ⟨S512x128, .f32⟩
  | .hbm, ⟨11, _⟩ => ⟨S512x128, .bf16⟩
  | .hbm, ⟨12, _⟩ => ⟨S320000x1, .f32⟩
  | .hbm, ⟨13, _⟩ => ⟨S320000x128, .f32⟩
  | .hbm, ⟨14, _⟩ => ⟨S320000x64, .f32⟩
  | .hbm, ⟨15, _⟩ => ⟨S1x320000, .i32⟩
  | .hbm, ⟨16, _⟩ => ⟨S320000, .i32⟩
  | .hbm, ⟨17, _⟩ => ⟨S_, .f32⟩
  | .hbm, ⟨18, _⟩ => ⟨S10000x64, .f32⟩
  | .hbm, ⟨19, _⟩ => ⟨S320000x1, .i32⟩
  | .hbm, ⟨20, _⟩ => ⟨S10000x64, .f32⟩
  | .local _ .vmem, ⟨0, _⟩ => ⟨S4000x512, .f32⟩
  | .local _ .vmem, ⟨1, _⟩ => ⟨S4000x512, .f32⟩
  | .local _ .vmem, ⟨2, _⟩ => ⟨S512x512, .bf16⟩
  | .local _ .vmem, ⟨3, _⟩ => ⟨S512x512, .bf16⟩
  | .local _ .vmem, ⟨4, _⟩ => ⟨S512x128, .bf16⟩
  | .local _ .vmem, ⟨5, _⟩ => ⟨S4000x1, .f32⟩
  | .local _ .vmem, ⟨6, _⟩ => ⟨S4000x1, .f32⟩
  | .local _ .vmem, ⟨7, _⟩ => ⟨S4000x128, .f32⟩
  | .local _ .vmem, ⟨8, _⟩ => ⟨S4000x128, .f32⟩
  | _, _ => ⟨S320000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![80], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c1000_i32 : BitVec 32 := 1000#32
  let v1 : BitVec 32 := Scalar.muli arg7 c1000_i32
  v1
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c1000_i32 : BitVec 32 := 1000#32
  let v1 : BitVec 32 := Scalar.muli arg7 c1000_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c1000_i32 : BitVec 32 := 1000#32
  let v1 : BitVec 32 := Scalar.muli arg7 c1000_i32
  let v2 : BitVec 32 := v1
  let v21 : Index := Scalar.indexCast v2
  let c0_11 : Index := 0#32
  ![v21.toNat, 0]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c1000_i32 : BitVec 32 := 1000#32
  let v1 : BitVec 32 := Scalar.muli arg7 c1000_i32
  let v2 : BitVec 32 := v1
  let v26 : Index := Scalar.indexCast v2
  let c0_12 : Index := 0#32
  ![v26.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  pads_S512x64_S512x128_000_0640 : S512x64.Pads (![0, 0] : Fin 2 → Nat) ![0, 64] ![0, 0] S512x128
  h_S_ : 0 < S_.numel
  shapeCasts_S320000_S320000x1 : S320000.ShapeCasts S320000x1
  h_S1000x512 : 0 < S1000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  h_S1000x1 : 0 < S1000x1.numel
  shapeCasts_S1000x1_S1000x1 : S1000x1.ShapeCasts S1000x1
  broadcasts_S1000x1_S1000x128 : S1000x1.Broadcasts S1000x128
  h_S1000x128 : 0 < S1000x128.numel
  slices_S320000x128_S320000x64_0_0 : S320000x128.Slices ![0, 0] S320000x64
  slices_S2x320000_S1x320000_0_0 : S2x320000.Slices ![0, 0] S1x320000
  shapeCasts_S1x320000_S320000 : S1x320000.ShapeCasts S320000
  bcast_S_S10000x64 : S_.BroadcastsInDim S10000x64 (![] : Fin 0 → Fin S10000x64.rank)
  bcast_S320000_S320000x1_0 : S320000.BroadcastsInDim S320000x1 (![0] : Fin 1 → Fin S320000x1.rank)
  dot_S1000x512_S512x512_S1000x512_1_0_0_1_n_n_wf : DotDims.WF S1000x512 S512x512 S1000x512 [1] [0] [0] [1] [] []
  dot_S1000x512_S512x128_S1000x128_1_0_0_1_n_n_wf : DotDims.WF S1000x512 S512x128 S1000x128 [1] [0] [0] [1] [] []
  scatter_S10000x64_S320000x1_S320000x64_1_0_0_1_wf : ScatterDims.WF S10000x64 S320000x1 S320000x64 [1] [0] [0] 1
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1000x512.size a ≤ S4000x512.size a
  k0_off2_inb : ∀ k0_t1 : Fin k0_t1_loop.trips, ∀ a, (k0_off2 k0_t1) a + S1000x1.size a ≤ S4000x1.size a
  k0_off3_inb : ∀ k0_t1 : Fin k0_t1_loop.trips, ∀ a, (k0_off3 k0_t1) a + S1000x128.size a ≤ S4000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S320000x512.size a
  hwx0_0 : ∀ i : grid0.Coords, EltTy.bits .f32 = 32 ∨ (Rect.block (s := S320000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S320000x1.size a
  hwx0_4 : ∀ i : grid0.Coords, EltTy.bits .f32 = 32 ∨ (Rect.block (s := S320000x1) S4000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S320000x128.size a
  hwx0_5 : ∀ i : grid0.Coords, EltTy.bits .f32 = 32 ∨ (Rect.block (s := S320000x128) S4000x128.size (cc0_transform_5 i) (hinb0_5 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def scatter_S10000x64_S320000x1_S320000x64_1_0_0_1 : ScatterDims S10000x64 S320000x1 S320000x64 where
  updateWindowDims := [1]
  insertedWindowDims := [0]
  scatterDimsToOperandDims := [0]
  indexVectorDim := 1
  wf := scatter_S10000x64_S320000x1_S320000x64_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S320000x512 : Shape := ⟨2, ![320000, 512]⟩
abbrev S2x320000 : Shape := ⟨2, ![2, 320000]⟩
abbrev S320000 : Shape := ⟨1, ![320000]⟩
abbrev S512x512 : Shape := ⟨2, ![512, 512]⟩
abbrev S512x64 : Shape := ⟨2, ![512, 64]⟩
abbrev S_ : Shape := ⟨0, ![]⟩
abbrev S320000x64 : Shape := ⟨2, ![320000, 64]⟩
abbrev S320000x1 : Shape := ⟨2, ![320000, 1]⟩
abbrev S1x320000 : Shape := ⟨2, ![1, 320000]⟩
abbrev S10000x64 : Shape := ⟨2, ![10000, 64]⟩

abbrev nBuf : Space → Nat
  | .hbm => 24
  | .vmem => 0
  | .smem => 0
  | _ => 0

abbrev bufTy : (tb : Table) → Fin (tcTables nBuf tb) → BufTy
  | .hbm, ⟨0, _⟩ => ⟨S320000x512, .f32⟩
  | .hbm, ⟨1, _⟩ => ⟨S2x320000, .i32⟩
  | .hbm, ⟨2, _⟩ => ⟨S320000, .f32⟩
  | .hbm, ⟨3, _⟩ => ⟨S512x512, .f32⟩
  | .hbm, ⟨4, _⟩ => ⟨S512x512, .f32⟩
  | .hbm, ⟨5, _⟩ => ⟨S512x64, .f32⟩
  | .hbm, ⟨6, _⟩ => ⟨S320000x512, .f32⟩
  | .hbm, ⟨7, _⟩ => ⟨S_, .f32⟩
  | .hbm, ⟨8, _⟩ => ⟨S320000x512, .f32⟩
  | .hbm, ⟨9, _⟩ => ⟨S320000x512, .f32⟩
  | .hbm, ⟨10, _⟩ => ⟨S320000x512, .f32⟩
  | .hbm, ⟨11, _⟩ => ⟨S_, .f32⟩
  | .hbm, ⟨12, _⟩ => ⟨S320000x512, .f32⟩
  | .hbm, ⟨13, _⟩ => ⟨S320000x512, .f32⟩
  | .hbm, ⟨14, _⟩ => ⟨S320000x64, .f32⟩
  | .hbm, ⟨15, _⟩ => ⟨S320000x1, .f32⟩
  | .hbm, ⟨16, _⟩ => ⟨S320000x64, .f32⟩
  | .hbm, ⟨17, _⟩ => ⟨S320000x64, .f32⟩
  | .hbm, ⟨18, _⟩ => ⟨S1x320000, .i32⟩
  | .hbm, ⟨19, _⟩ => ⟨S320000, .i32⟩
  | .hbm, ⟨20, _⟩ => ⟨S_, .f32⟩
  | .hbm, ⟨21, _⟩ => ⟨S10000x64, .f32⟩
  | .hbm, ⟨22, _⟩ => ⟨S320000x1, .i32⟩
  | .hbm, ⟨23, _⟩ => ⟨S10000x64, .f32⟩
  | _, _ => ⟨S320000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_call1_cst : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]

class Facts₀ : Prop where
  bcast_S_S320000x512 : S_.BroadcastsInDim S320000x512 (![] : Fin 0 → Fin S320000x512.rank)
  bcast_S320000_S320000x1_0 : S320000.BroadcastsInDim S320000x1 (![0] : Fin 1 → Fin S320000x1.rank)
  bcast_S320000x1_S320000x64_0_1 : S320000x1.BroadcastsInDim S320000x64 (![0, 1] : Fin 2 → Fin S320000x64.rank)
  slices_S2x320000_S1x320000_0_0 : S2x320000.Slices ![0, 0] S1x320000
  shapeCasts_S1x320000_S320000 : S1x320000.ShapeCasts S320000
  bcast_S_S10000x64 : S_.BroadcastsInDim S10000x64 (![] : Fin 0 → Fin S10000x64.rank)
  dot_S320000x512_S512x512_S320000x512_1_0_0_1_n_n_wf : DotDims.WF S320000x512 S512x512 S320000x512 [1] [0] [0] [1] [] []
  dot_S320000x512_S512x64_S320000x64_1_0_0_1_n_n_wf : DotDims.WF S320000x512 S512x64 S320000x64 [1] [0] [0] [1] [] []
  scatter_S10000x64_S320000x1_S320000x64_1_0_0_1_wf : ScatterDims.WF S10000x64 S320000x1 S320000x64 [1] [0] [0] 1

variable [Facts₀]

def dot_S320000x512_S512x512_S320000x512_1_0_0_1_n_n : DotDims S320000x512 S512x512 S320000x512 where
  lhsContracting := [1]
  rhsContracting := [0]
  lhsNonContracting := [0]
  rhsNonContracting := [1]
  lhsBatch := []
  rhsBatch := []
  wf := dot_S320000x512_S512x512_S320000x512_1_0_0_1_n_n_wf
def dot_S320000x512_S512x64_S320000x64_1_0_0_1_n_n : DotDims S320000x512 S512x64 S320000x64 where
  lhsContracting := [1]
  rhsContracting := [0]
  lhsNonContracting := [0]
  rhsNonContracting := [1]
  lhsBatch := []
  rhsBatch := []
  wf := dot_S320000x512_S512x64_S320000x64_1_0_0_1_n_n_wf
def scatter_S10000x64_S320000x1_S320000x64_1_0_0_1 : ScatterDims S10000x64 S320000x1 S320000x64 where
  updateWindowDims := [1]
  insertedWindowDims := [0]
  scatterDimsToOperandDims := [0]
  indexVectorDim := 1
  wf := scatter_S10000x64_S320000x1_S320000x64_1_0_0_1_wf

class Facts : Prop extends Facts₀ where

variable [Facts]
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.LibBlockRows.lean ====
/-
  Rows of a kernel block, on the extended reals.

  A kernel body that works on a block of R rows often (a) scales a sum of two [R, K] blocks by a per-row factor held
  as a column [R, 1] and spread over the lanes, and (b) multiplies an [R, K] block by a [K, N] matrix, accumulating
  into zeros, and adds a bias held as a one-row matrix [1, N] spread over the rows (the bias was reshaped to one row
  on the host, and the body loads that row). In both, row r of the result depends on row r of the row operands alone:
      (a)  k ↦ (a r k + f r k) · s r            (b)  n ↦ (∑ k, a r k · w k n) + b 0 n.
  The lemmas below read those rows, at any extents, for the plain dimension numbers (contract the left operand's
  last axis with the right operand's first, no batch axis). They use `row`, `mat`, `affine` and
  `plain_contr_sum` of LibDenseRows.lean.
-/
import Idealize.ShloMosaic.Lib.ValueLayout
import Idealize.ShloMosaic.Lib.ValueIdx
import Idealize.ShloMosaic.Lib.Pipeline.Value
import Idealize.ShloMosaic.PureOps.Ideal.Laws
import proofs.«122593_j43413529428215_2_alg».proof.Proof.LibDenseRows

noncomputable section

namespace Cert.LibBlockRows

open Idealize.ShloMosaic Idealize.ShloMosaic.ValueIdx Cert.DenseRows

/-- A column [R, 1] spread over K lanes reads, at (r, k), the column at r. -/
theorem column_spread {α : Type} {R K : ℕ} (s : (⟨2, ![R, 1]⟩ : Shape).Idx → α)
    (hb : (⟨2, ![R, 1]⟩ : Shape).Broadcasts ⟨2, ![R, K]⟩) (r : Fin R) (k : Fin K) :
    broadcastTo ⟨2, ![R, K]⟩ s hb (ix2 r k) = s (ix2 r (0 : Fin 1)) := by
  refine broadcastTo_apply s hb (ix2 r k) (ix2 r (0 : Fin 1)) fun ax => ?_
  match ax with
  | ⟨0, _⟩ =>
    show r.val = if R = 1 then 0 else r.val
    split
    · have := r.isLt; omega
    · rfl
  | ⟨1, _⟩ => rfl

/-- A one-row matrix [1, N] spread over R rows reads, at (r, n), the row at n. -/
theorem row_spread {α : Type} {R N : ℕ} (b : (⟨2, ![1, N]⟩ : Shape).Idx → α)
    (hb : (⟨2, ![1, N]⟩ : Shape).Broadcasts ⟨2, ![R, N]⟩) (r : Fin R) (n : Fin N) :
    broadcastTo ⟨2, ![R, N]⟩ b hb (ix2 r n) = b (ix2 (0 : Fin 1) n) := by
  refine broadcastTo_apply b hb (ix2 r n) (ix2 (0 : Fin 1) n) fun ax => ?_
  match ax with
  | ⟨0, _⟩ => rfl
  | ⟨1, _⟩ =>
    show n.val = if N = 1 then 0 else n.val
    split
    · have := n.isLt; omega
    · rfl

/-- Row `r` of `(a + f) · s`, the column `s` spread over the lanes: every entry of the summed row times the one
    factor `s r`. -/
theorem row_scaled_sum {R K : ℕ} (a f : FVec Ideal ⟨2, ![R, K]⟩ .f32) (s : FVec Ideal ⟨2, ![R, 1]⟩ .f32)
    (hb : (⟨2, ![R, 1]⟩ : Shape).Broadcasts ⟨2, ![R, K]⟩) (r : Fin R) :
    row (mulf (addf a f) (broadcastTo ⟨2, ![R, K]⟩ s hb)) r
      = fun k => (row a r k + row f r k) * s (ix2 r (0 : Fin 1)) := by
  funext k
  show (a (ix2 r k) + f (ix2 r k)) * broadcastTo ⟨2, ![R, K]⟩ s hb (ix2 r k) = _
  rw [column_spread]
  rfl

/-- Row `r` of a matrix product accumulated into the zero splat, plus a one-row bias spread over the rows, is the
    dense layer `h ↦ h · w + b` of row `r` of the left operand. -/
theorem row_matmul_rowbias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (r : Fin R) :
    row (addf (matmul d prec a w (constant (F := Ideal) ⟨2, ![R, N]⟩ .f32 0x00000000#32))
          (broadcastTo ⟨2, ![R, N]⟩ b hb)) r
      = affine (row a r) (mat w) (row b (0 : Fin 1)) := by
  subst hd
  funext n
  show FloatOps.matmul (DotDims.plain R K N) prec a w (constant (F := Ideal) ⟨2, ![R, N]⟩ .f32 0x00000000#32) (ix2 r n)
      + broadcastTo ⟨2, ![R, N]⟩ b hb (ix2 r n) = _
  rw [Ideal.matmul_constant_zero_apply, plain_contr_sum, row_spread]
  rfl

end Cert.LibBlockRows

end
-- ==== Proof.LibLayerSum.lean ====
/-
  The sum of two dense layers, read one row at a time on the extended reals.

  For `[R, K]` arrays `a` and `x`, `[K, N]` matrices `u` and `w` and a bias `b` of `N` entries, the array
  `(a · u + b) + x · w` has as its row `r`
      n ↦ ((∑ k, a r k * u k n) + b n) + ∑ k, x r k * w k n,
  a function of row `r` of `a` and row `r` of `x` alone (`layerSum`). The lemmas here read that row off the two
  spellings a program gives the array — two matrix products accumulated into zero splats with the bias held as a
  one-row matrix `[1, N]` spread over the rows, and two host `dot_general`s with the bias `[N]` broadcast in
  dimension twice — for the plain dimension numbers (contract the left operand's last axis with the right
  operand's first, no batch axis), at any extents and any float formats of the operands. Since both spellings give
  the same function of the row, the array computed block of rows by block of rows and the array computed whole
  agree row by row; `wholeOf` is that array as one function of its index. No finiteness is used: only the
  grouping `(· + b) + ·`, which the two spellings share.
  Built on `row`, `mat`, `vec`, `affine`, `plain_contr_sum` of LibDenseRows.lean and `row_matmul_rowbias` of
  LibBlockRows.lean.
-/
import Idealize.ShloMosaic.Lib.ValueLayout
import Idealize.ShloMosaic.Lib.ValueIdx
import Idealize.ShloMosaic.PureOps.Ideal.Laws
import proofs.«122593_j43413529428215_2_alg».proof.Proof.LibDenseRows
import proofs.«122593_j43413529428215_2_alg».proof.Proof.LibBlockRows

noncomputable section

namespace Cert.LibLayerSum

open Idealize.ShloMosaic Idealize.ShloMosaic.ValueIdx Cert.DenseRows Cert.LibBlockRows

/-- One row times a matrix: `h · W`. -/
def linear {K N : ℕ} (h : Fin K → EReal) (W : Fin K → Fin N → EReal) : Fin N → EReal :=
  fun n => ∑ k : Fin K, h k * W k n

/-- A biased dense layer of the row `h` plus an unbiased one of the row `g`: `(h · U + b) + g · W`. -/
def layerSum {K N : ℕ} (h g : Fin K → EReal) (U W : Fin K → Fin N → EReal) (b : Fin N → EReal) : Fin N → EReal :=
  fun n => affine h U b n + linear g W n

/-- The array whose row `r` is `layerSum` of row `r` of `A` and row `r` of `X`. -/
def wholeOf {R K N : ℕ} (A X : (⟨2, ![R, K]⟩ : Shape).Idx → EReal) (U W : (⟨2, ![K, N]⟩ : Shape).Idx → EReal)
    (b : Fin N → EReal) : (⟨2, ![R, N]⟩ : Shape).Idx → EReal :=
  fun i => layerSum (row A (i 0)) (row X (i 0)) (mat U) (mat W) b (i 1)

theorem wholeOf_ix2 {R K N : ℕ} (A X : (⟨2, ![R, K]⟩ : Shape).Idx → EReal) (U W : (⟨2, ![K, N]⟩ : Shape).Idx → EReal)
    (b : Fin N → EReal) (r : Fin R) (n : Fin N) :
    wholeOf A X U W b (ix2 r n) = layerSum (row A r) (row X r) (mat U) (mat W) b n := rfl

/-- Row `r` of a matrix product accumulated into the zero splat. -/
theorem row_matmul {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (r : Fin R) :
    row (matmul d prec a w (constant (F := Ideal) ⟨2, ![R, N]⟩ .f32 0x00000000#32)) r = linear (row a r) (mat w) := by
  subst hd
  funext n
  show FloatOps.matmul (DotDims.plain R K N) prec a w (constant (F := Ideal) ⟨2, ![R, N]⟩ .f32 0x00000000#32) (ix2 r n) = _
  rw [Ideal.matmul_constant_zero_apply, plain_contr_sum]
  rfl

/-- Row `r` of a host `dot_general`. -/
theorem row_dotGeneral {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (r : Fin R) :
    row (Host.dotGeneral d prec a w : FVec Ideal ⟨2, ![R, N]⟩ .f32) r = linear (row a r) (mat w) := by
  subst hd
  funext n
  show FloatOps.dotGeneral (DotDims.plain R K N) prec .single a w (ix2 r n) = _
  rw [Ideal.dotGeneral_apply, plain_contr_sum]
  rfl

/-- THE BLOCK'S SPELLING: row `r` of `(a ·ₘ u + spread b) + x ·ₘ w`, the products accumulated into zero splats, the
    bias a one-row matrix spread over the rows. -/
theorem row_block {R K N : ℕ} {φ₁ φ₂ φ₃ φ₄ : FTy} (d : DotDims ⟨2, ![R, K]⟩ ⟨2, ![K, N]⟩ ⟨2, ![R, N]⟩)
    (hd : d = DotDims.plain R K N) (prec prec' : Option ContractPrecision)
    (a : FVec Ideal ⟨2, ![R, K]⟩ φ₁) (u : FVec Ideal ⟨2, ![K, N]⟩ φ₂)
    (x : FVec Ideal ⟨2, ![R, K]⟩ φ₃) (w : FVec Ideal ⟨2, ![K, N]⟩ φ₄) (b : FVec Ideal ⟨2, ![1, N]⟩ .f32)
    (hb : (⟨2, ![1, N]⟩ : Shape).Broadcasts ⟨2, ![R, N]⟩) (r : Fin R) :
    row (addf (addf (matmul d prec a u (constant (F := Ideal) ⟨2, ![R, N]⟩ .f32 0x00000000#32))
            (broadcastTo ⟨2, ![R, N]⟩ b hb))
          (matmul d prec' x w (constant (F := Ideal) ⟨2, ![R, N]⟩ .f32 0x00000000#32))) r
      = layerSum (row a r) (row x r) (mat u) (mat w) (row b (0 : Fin 1)) := by
  funext n
  show row (addf (matmul d prec a u (constant (F := Ideal) ⟨2, ![R, N]⟩ .f32 0x00000000#32))
          (broadcastTo ⟨2, ![R, N]⟩ b hb)) r n
        + row (matmul d prec' x w (constant (F := Ideal) ⟨2, ![R, N]⟩ .f32 0x00000000#32)) r n = _
  rw [row_matmul_rowbias d hd, row_matmul d hd]
  rfl

/-- THE HOST'S SPELLING: row `r` of `(dot_general a u + b broadcast twice) + dot_general x w`. -/
theorem row_host {R K N : ℕ} {φ₁ φ₂ φ₃ φ₄ : FTy} (d : DotDims ⟨2, ![R, K]⟩ ⟨2, ![K, N]⟩ ⟨2, ![R, N]⟩)
    (hd : d = DotDims.plain R K N) (prec prec' : Option ContractPrecision)
    (a : FVec Ideal ⟨2, ![R, K]⟩ φ₁) (u : FVec Ideal ⟨2, ![K, N]⟩ φ₂)
    (x : FVec Ideal ⟨2, ![R, K]⟩ φ₃) (w : FVec Ideal ⟨2, ![K, N]⟩ φ₄) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (addf (Host.dotGeneral d prec a u)
            (broadcastInDim ⟨2, ![R, N]⟩ ![0, 1] h2 (broadcastInDim ⟨2, ![1, N]⟩ ![1] h1 b)))
          (Host.dotGeneral d prec' x w : FVec Ideal ⟨2, ![R, N]⟩ .f32)) r
      = layerSum (row a r) (row x r) (mat u) (mat w) (vec b) := by
  funext n
  show row (addf (Host.dotGeneral d prec a u)
          (broadcastInDim ⟨2, ![R, N]⟩ ![0, 1] h2 (broadcastInDim ⟨2, ![1, N]⟩ ![1] h1 b))) r n
        + row (Host.dotGeneral d prec' x w : FVec Ideal ⟨2, ![R, N]⟩ .f32) r n = _
  rw [row_dotGeneral_bias d hd, row_dotGeneral d hd]
  rfl

/-- So the host's array is `wholeOf` of its operands, index by index. -/
theorem host_whole {R K N : ℕ} {φ₁ φ₂ φ₃ φ₄ : FTy} (d : DotDims ⟨2, ![R, K]⟩ ⟨2, ![K, N]⟩ ⟨2, ![R, N]⟩)
    (hd : d = DotDims.plain R K N) (prec prec' : Option ContractPrecision)
    (a : FVec Ideal ⟨2, ![R, K]⟩ φ₁) (u : FVec Ideal ⟨2, ![K, N]⟩ φ₂)
    (x : FVec Ideal ⟨2, ![R, K]⟩ φ₃) (w : FVec Ideal ⟨2, ![K, N]⟩ φ₄) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) :
    addf (addf (Host.dotGeneral d prec a u)
            (broadcastInDim ⟨2, ![R, N]⟩ ![0, 1] h2 (broadcastInDim ⟨2, ![1, N]⟩ ![1] h1 b)))
          (Host.dotGeneral d prec' x w : FVec Ideal ⟨2, ![R, N]⟩ .f32)
      = wholeOf a x u w (vec b) := by
  funext i
  obtain ⟨r, n, rfl⟩ : ∃ (r : Fin R) (n : Fin N), i = ix2 r n := ⟨i 0, i 1, eq_ix2 i⟩
  exact congrFun (row_host d hd prec prec' a u x w b h1 h2 r) n

/-- An `[N]` array cast to one row `[1, N]` has the array as that row. -/
theorem row_cast_vec {N : ℕ} (b : (⟨1, ![N]⟩ : Shape).Idx → EReal) (hc : (⟨1, ![N]⟩ : Shape).ShapeCasts ⟨2, ![1, N]⟩) :
    row (shapeCast ⟨2, ![1, N]⟩ b hc) (0 : Fin 1) = vec b := by
  funext n
  show shapeCast ⟨2, ![1, N]⟩ b hc (ix2 (0 : Fin 1) n) = b (ix1 n)
  rw [shapeCast_a_1a_apply]

end Cert.LibLayerSum

end
-- ==== Proof.EdgeMlp.lean ====
/-
  The per-edge value both programs compute, on the extended reals.

  For one edge with feature row `h` (K entries) and weight `a`, and weight matrices `W0 : K × H`, `W1 : H × H'`,
  `W2 : H' × N`, the edge's row of weighted class scores is
      n ↦ (∑ k'', max (∑ k', max (∑ k, h k * W0 k k') z * W1 k' k'') z * W2 k'' n) * a,
  three dense layers with a rectifier (the entrywise maximum with the threshold `z`, the value of the zero word)
  before the second and the third, then the edge weight. The row of the result for edge `e` depends on row `e` of
  the feature array and entry `e` of the weights alone, which is why computing it block of rows by block of rows,
  or all rows at once, gives the same array; and no law of arithmetic is used to compare the two, only that the
  same sums of the same products are formed.
-/
import proofs.«122593_j43413529428215_2_alg».proof.Proof.LibDenseRows
import proofs.«122593_j43413529428215_2_alg».proof.Proof.LibLayerSum

noncomputable section

namespace Cert.EdgeMlp

open Idealize.ShloMosaic Idealize.ShloMosaic.ValueIdx Cert.DenseRows Cert.LibLayerSum

/-- The rectifier's threshold: the value of the all-zero 32-bit float word. -/
def z0 : EReal := Ideal.ofBits .f32 0x00000000#32

/-- One edge's row of weighted scores from its feature row `h`, the three weight matrices and its weight `a`. -/
def edgeRow {K H H' N : ℕ} (h : Fin K → EReal) (W0 : Fin K → Fin H → EReal) (W1 : Fin H → Fin H' → EReal)
    (W2 : Fin H' → Fin N → EReal) (a : EReal) : Fin N → EReal :=
  fun n => linear (floorAt z0 (linear (floorAt z0 (linear h W0)) W1)) W2 n * a

/-- The array of every edge's row: entry `(e, n)` is `edgeRow` of row `e` of `x` and the weight `ea e`. -/
def weighted {E K H H' N : ℕ} (x : (⟨2, ![E, K]⟩ : Shape).Idx → EReal) (W0 : (⟨2, ![K, H]⟩ : Shape).Idx → EReal)
    (W1 : (⟨2, ![H, H']⟩ : Shape).Idx → EReal) (W2 : (⟨2, ![H', N]⟩ : Shape).Idx → EReal) (ea : Fin E → EReal) :
    (⟨2, ![E, N]⟩ : Shape).Idx → EReal :=
  fun i => edgeRow (row x (i 0)) (mat W0) (mat W1) (mat W2) (ea (i 0)) (i 1)

theorem weighted_ix2 {E K H H' N : ℕ} (x : (⟨2, ![E, K]⟩ : Shape).Idx → EReal) (W0 : (⟨2, ![K, H]⟩ : Shape).Idx → EReal)
    (W1 : (⟨2, ![H, H']⟩ : Shape).Idx → EReal) (W2 : (⟨2, ![H', N]⟩ : Shape).Idx → EReal) (ea : Fin E → EReal)
    (e : Fin E) (n : Fin N) :
    weighted x W0 W1 W2 ea (ix2 e n) = edgeRow (row x e) (mat W0) (mat W1) (mat W2) (ea e) n := rfl

/-- Only the first `N` columns of the last matrix matter for the first `N` scores: if `W2'` (with `N'` columns)
    agrees with `W2` on a column `n'` that sits at `n`, the scores agree there. -/
theorem edgeRow_congr_col {K H H' N N' : ℕ} (h : Fin K → EReal) (W0 : Fin K → Fin H → EReal) (W1 : Fin H → Fin H' → EReal)
    (W2 : Fin H' → Fin N → EReal) (W2' : Fin H' → Fin N' → EReal) (a : EReal) (n : Fin N) (n' : Fin N')
    (hcol : ∀ k, W2' k n' = W2 k n) :
    edgeRow h W0 W1 W2' a n' = edgeRow h W0 W1 W2 a n := by
  unfold edgeRow linear
  simp only [hcol]

/-- Two arrays of weighted scores agree at a pair of indices as soon as the feature rows, the three matrices and the
    edge weights they read there agree, and the two indices name the same column. -/
theorem weighted_congr {E E' K H H' N : ℕ}
    (x : (⟨2, ![E, K]⟩ : Shape).Idx → EReal) (W0 : (⟨2, ![K, H]⟩ : Shape).Idx → EReal)
    (W1 : (⟨2, ![H, H']⟩ : Shape).Idx → EReal) (W2 : (⟨2, ![H', N]⟩ : Shape).Idx → EReal) (ea : Fin E → EReal)
    (x' : (⟨2, ![E', K]⟩ : Shape).Idx → EReal) (W0' : (⟨2, ![K, H]⟩ : Shape).Idx → EReal)
    (W1' : (⟨2, ![H, H']⟩ : Shape).Idx → EReal) (W2' : (⟨2, ![H', N]⟩ : Shape).Idx → EReal) (ea' : Fin E' → EReal)
    (i : (⟨2, ![E, N]⟩ : Shape).Idx) (i' : (⟨2, ![E', N]⟩ : Shape).Idx)
    (hx : ∀ k : Fin K, x (ix2 (i 0) k) = x' (ix2 (i' 0) k)) (h0 : mat W0 = mat W0') (h1 : mat W1 = mat W1')
    (h2 : mat W2 = mat W2') (hea : ea (i 0) = ea' (i' 0)) (hn : (i 1).val = (i' 1).val) :
    weighted x W0 W1 W2 ea i = weighted x' W0' W1' W2' ea' i' := by
  have hrow : row x (i 0) = row x' (i' 0) := funext hx
  unfold weighted
  rw [hrow, h0, h1, h2, hea]
  exact congrArg _ (Fin.ext hn)

end Cert.EdgeMlp

end
-- ==== Proof.LibLayoutRead.lean ====
/-
  Layout operations read at explicit coordinates, for the shapes a row-wise normalisation meets.

  A keepdims row statistic lives in a column [a, 1]: it is made from a vector [a] by a shape cast and spread
  back over the b lanes of its row by a broadcast; a parameter vector [b] becomes a row [1, b] and is spread
  over the rows. On the host the same happens one rank up, on [n, g, 1] and [n, g, b], and a matrix [n, g*b] is
  re-read as [n, g, b] by its row-major position p*b + j. Each lemma names the ONE operand element an output element
  reads, with every index written by the literal-size constructors ix1, ix2, ix3.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LayoutRead

open Idealize.ShloMosaic Idealize.ShloMosaic.ValueIdx

variable {α : Type}

/-! ## Rank 2: a column of row statistics -/

/-- A vector [a] cast to the column [a, 1] reads, at (r, u), the vector at r. -/
theorem cast_col {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column [a, 1] broadcast over b lanes reads, at (r, j), the column at row r. -/
theorem bcast_col {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The lane sum of a matrix, at row r, is the sum of that row (at the extended reals). -/
theorem rowsum {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (funext fun ax => by
      match ax with
      | ⟨0, _⟩ => rfl
      | ⟨1, _⟩ => rfl))

/-! ## The host's forms: broadcast_in_dim, the rank-3 view of the four gates, the host sum -/

/-- A coordinate is what a broadcast asks of it: itself, or zero when its axis has one element. -/
theorem unit_or (n : ℕ) (j : Fin n) : j.val = if n = 1 then 0 else j.val := by
  split
  · have := j.isLt; omega
  · rfl

/-- A rank-zero value broadcast to any shape reads its one element everywhere. -/
theorem bcast_scalar {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector [n] as the row [1, n]. -/
theorem bid_row {n : ℕ} (x : (⟨1, ![n]⟩ : Shape).Idx → α) (h : (⟨1, ![n]⟩ : Shape).BroadcastsInDim ⟨2, ![1, n]⟩ ![1])
    (u : Fin 1) (j : Fin n) : broadcastInDim ⟨2, ![1, n]⟩ ![1] h x (ix2 u j) = x (ix1 j) :=
  broadcastInDim_apply _ h x _ _ fun a => by
    match a with
    | ⟨0, _⟩ => exact unit_or n j

/-- A row [1, n] spread over m rows. -/
theorem bid_rows {m n : ℕ} (x : (⟨2, ![1, n]⟩ : Shape).Idx → α) (h : (⟨2, ![1, n]⟩ : Shape).BroadcastsInDim ⟨2, ![m, n]⟩ ![0, 1])
    (b : Fin m) (j : Fin n) : broadcastInDim ⟨2, ![m, n]⟩ ![0, 1] h x (ix2 b j) = x (ix2 (0 : Fin 1) j) :=
  broadcastInDim_apply _ h x _ _ fun a => by
    match a with
    | ⟨0, _⟩ => rfl
    | ⟨1, _⟩ => exact unit_or n j

/-- A vector [m] as the column [m, 1]. -/
theorem bid_col {m : ℕ} (x : (⟨1, ![m]⟩ : Shape).Idx → α) (h : (⟨1, ![m]⟩ : Shape).BroadcastsInDim ⟨2, ![m, 1]⟩ ![0])
    (b : Fin m) (u : Fin 1) : broadcastInDim ⟨2, ![m, 1]⟩ ![0] h x (ix2 b u) = x (ix1 b) :=
  broadcastInDim_apply _ h x _ _ fun a => by
    match a with
    | ⟨0, _⟩ => exact unit_or m b

/-- A column [m, 1] spread over n lanes. -/
theorem bid_cols {m n : ℕ} (x : (⟨2, ![m, 1]⟩ : Shape).Idx → α) (h : (⟨2, ![m, 1]⟩ : Shape).BroadcastsInDim ⟨2, ![m, n]⟩ ![0, 1])
    (b : Fin m) (j : Fin n) : broadcastInDim ⟨2, ![m, n]⟩ ![0, 1] h x (ix2 b j) = x (ix2 b (0 : Fin 1)) :=
  broadcastInDim_apply _ h x _ _ fun a => by
    match a with
    | ⟨0, _⟩ => exact unit_or m b
    | ⟨1, _⟩ => rfl

/-- A matrix [m, g] of per-gate statistics as [m, g, 1]. -/
theorem bid_stat {m g : ℕ} (x : (⟨2, ![m, g]⟩ : Shape).Idx → α) (h : (⟨2, ![m, g]⟩ : Shape).BroadcastsInDim ⟨3, ![m, g, 1]⟩ ![0, 1])
    (b : Fin m) (p : Fin g) (u : Fin 1) : broadcastInDim ⟨3, ![m, g, 1]⟩ ![0, 1] h x (ix3 b p u) = x (ix2 b p) :=
  broadcastInDim_apply _ h x _ _ fun a => by
    match a with
    | ⟨0, _⟩ => exact unit_or m b
    | ⟨1, _⟩ => exact unit_or g p

/-- Per-gate statistics [m, g, 1] spread over the n lanes of each gate. -/
theorem bid_stats {m g n : ℕ} (x : (⟨3, ![m, g, 1]⟩ : Shape).Idx → α)
    (h : (⟨3, ![m, g, 1]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 b p (0 : Fin 1)) :=
  broadcastInDim_apply _ h x _ _ fun a => by
    match a with
    | ⟨0, _⟩ => exact unit_or m b
    | ⟨1, _⟩ => exact unit_or g p
    | ⟨2, _⟩ => rfl

/-- The per-gate parameters [g, n] as [1, g, n]. -/
theorem bid_par {g n : ℕ} (x : (⟨2, ![g, n]⟩ : Shape).Idx → α) (h : (⟨2, ![g, n]⟩ : Shape).BroadcastsInDim ⟨3, ![1, g, n]⟩ ![1, 2])
    (u : Fin 1) (p : Fin g) (j : Fin n) : broadcastInDim ⟨3, ![1, g, n]⟩ ![1, 2] h x (ix3 u p j) = x (ix2 p j) :=
  broadcastInDim_apply _ h x _ _ fun a => by
    match a with
    | ⟨0, _⟩ => exact unit_or g p
    | ⟨1, _⟩ => exact unit_or n j

/-- The per-gate parameters [1, g, n] spread over m rows. -/
theorem bid_pars {m g n : ℕ} (x : (⟨3, ![1, g, n]⟩ : Shape).Idx → α)
    (h : (⟨3, ![1, g, n]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 (0 : Fin 1) p j) :=
  broadcastInDim_apply _ h x _ _ fun a => by
    match a with
    | ⟨0, _⟩ => rfl
    | ⟨1, _⟩ => exact unit_or g p
    | ⟨2, _⟩ => exact unit_or n j

/-- The four gates' pre-activations [m, 4096] re-read as [m, 4, 1024]: gate p, lane j is column 1024 p + j. -/
theorem cast_gates {m : ℕ} (x : (⟨2, ![m, 4096]⟩ : Shape).Idx → α) (h : (⟨2, ![m, 4096]⟩ : Shape).ShapeCasts ⟨3, ![m, 4, 1024]⟩)
    (b : Fin m) (p : Fin 4) (j : Fin 1024) (k : Fin 4096) (hk : k.val = 1024 * p.val + j.val) :
    shapeCast ⟨3, ![m, 4, 1024]⟩ x h (ix3 b p j) = x (ix2 b k) :=
  shapeCast_apply x h _ _ (by
    rw [Shape.rowMajor_val_two, Shape.rowMajor_val_three]
    show b.val * 4096 + k.val = (b.val * 4 + p.val) * 1024 + j.val
    omega)

/-- One gate cut out of [m, 4, n] keeps its row and lane. -/
theorem slice_gate {m n : ℕ} (o : ℕ) (x : (⟨3, ![m, 4, n]⟩ : Shape).Idx → α)
    (h : (⟨3, ![m, 4, n]⟩ : Shape).Slices ![0, o, 0] ⟨3, ![m, 1, n]⟩) (b : Fin m) (u : Fin 1) (j : Fin n) (p : Fin 4)
    (hp : p.val = o) : extractStridedSlice ⟨3, ![m, 1, n]⟩ ![0, o, 0] x h (ix3 b u j) = x (ix3 b p j) :=
  slice3_axis1_apply o x h b u j p (by have := u.isLt; omega)

/-- The cut gate [m, 1, n] as a matrix [m, n]. -/
theorem cast_gate {m n : ℕ} (x : (⟨3, ![m, 1, n]⟩ : Shape).Idx → α) (h : (⟨3, ![m, 1, n]⟩ : Shape).ShapeCasts ⟨2, ![m, n]⟩)
    (b : Fin m) (j : Fin n) : shapeCast ⟨2, ![m, n]⟩ x h (ix2 b j) = x (ix3 b (0 : Fin 1) j) :=
  shapeCast_apply x h _ _ (by
    rw [Shape.rowMajor_val_two, Shape.rowMajor_val_three]
    show (b.val * 1 + 0) * n + j.val = b.val * n + j.val
    rw [Nat.mul_one, Nat.add_zero])

/-- The host's sum over the lanes of each gate: the initial value plus the sum of the gate's lanes. -/
theorem hostsum_gate {m g n : ℕ} (x : FVec Ideal ⟨3, ![m, g, n]⟩ .f32) (init : (⟨0, ![]⟩ : Shape).Idx → Ideal .f32)
    (h' : (⟨3, ![m, g, n]⟩ : Shape).ReducesTo [2] ⟨2, ![m, g]⟩) (h : (⟨3, ![m, g, n]⟩ : Shape).Reduces [2] ⟨2, ![m, g]⟩)
    (hu : 0 < (⟨0, ![]⟩ : Shape).numel) (b : Fin m) (p : Fin g) :
    Host.reduceAdd x init h' hu (ix2 b p) = init ix0 + ∑ k : Fin n, x (ix3 b p k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl
  | ⟨2, _⟩ => rfl

/-- The host's sum over the lanes of a matrix row. -/
theorem hostsum_row {m n : ℕ} (x : FVec Ideal ⟨2, ![m, n]⟩ .f32) (init : (⟨0, ![]⟩ : Shape).Idx → Ideal .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (b : Fin m) :
    Host.reduceAdd x init h' hu (ix1 b) = init ix0 + ∑ k : Fin n, x (ix2 b k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl

end Cert.LayoutRead

end
-- ==== Proof.RefSide.lean ====
/-
  The reference program's weighted per-edge scores are the specification's.

  The reference computes, on all the rows at once, three dense layers with a rectifier before the second and the
  third, and multiplies row `e` of the result by the edge weight `a e`, which it holds as a column `[E, 1]` spread
  over the `N` lanes. Row `e` of a host `dot_general` with the plain dimension numbers is `linear` of row `e` of its
  left operand, and row `e` of an entrywise maximum with a splat scalar is `floorAt` of row `e`; so row `e` of the
  chain is the chain of `linear`s and `floorAt`s applied to row `e` of the feature array, and entry `(e, n)` of the
  product is that row at `n` times `a e`: the specification's `edgeRow`. Everything is stated at any extents; the
  literal shapes enter at the last step alone.
-/
import proofs.«122593_j43413529428215_2_alg».proof.Proof.Gen.ReferenceIdeal.Read
import proofs.«122593_j43413529428215_2_alg».proof.Proof.EdgeMlp
import proofs.«122593_j43413529428215_2_alg».proof.Proof.LibLayoutRead

noncomputable section

namespace Cert.ReferenceIdeal.RefValue
open Idealize.ShloMosaic Idealize.ShloMosaic.ValueIdx Cert.ReferenceIdeal Cert.ReferenceIdeal.Gen Cert.DenseRows

open Cert.LibLayerSum Cert.EdgeMlp Cert.LayoutRead

/-- Row `e` of three host `dot_general`s with a rectifier (the maximum with the splat of the zero word) before the
    second and the third: with `h` row `e` of the feature array, it is `max (max (h · W0) z · W1) z · W2`. -/
theorem row_mlp {E K H H' N : ℕ}
    (d0 : DotDims ⟨2, ![E, K]⟩ ⟨2, ![K, H]⟩ ⟨2, ![E, H]⟩) (hd0 : d0 = DotDims.plain E K H)
    (d1 : DotDims ⟨2, ![E, H]⟩ ⟨2, ![H, H']⟩ ⟨2, ![E, H']⟩) (hd1 : d1 = DotDims.plain E H H')
    (d2 : DotDims ⟨2, ![E, H']⟩ ⟨2, ![H', N]⟩ ⟨2, ![E, N]⟩) (hd2 : d2 = DotDims.plain E H' N)
    (p0 p1 p2 : Option ContractPrecision)
    (dm0 : Fin (⟨0, ![]⟩ : Shape).rank → Fin (⟨2, ![E, H]⟩ : Shape).rank)
    (b0 : (⟨0, ![]⟩ : Shape).BroadcastsInDim ⟨2, ![E, H]⟩ dm0)
    (dm1 : Fin (⟨0, ![]⟩ : Shape).rank → Fin (⟨2, ![E, H']⟩ : Shape).rank)
    (b1 : (⟨0, ![]⟩ : Shape).BroadcastsInDim ⟨2, ![E, H']⟩ dm1)
    (x : FVec Ideal ⟨2, ![E, K]⟩ .f32) (W0 : FVec Ideal ⟨2, ![K, H]⟩ .f32) (W1 : FVec Ideal ⟨2, ![H, H']⟩ .f32)
    (W2 : FVec Ideal ⟨2, ![H', N]⟩ .f32) (e : Fin E) :
    row (Host.dotGeneral d2 p2
        (maximumf (Host.dotGeneral d1 p1
          (maximumf (Host.dotGeneral d0 p0 x W0 : FVec Ideal ⟨2, ![E, H]⟩ .f32)
            (broadcastInDim ⟨2, ![E, H]⟩ dm0 b0 (constant (F := Ideal) ⟨0, ![]⟩ .f32 0x00000000#32))) W1
            : FVec Ideal ⟨2, ![E, H']⟩ .f32)
          (broadcastInDim ⟨2, ![E, H']⟩ dm1 b1 (constant (F := Ideal) ⟨0, ![]⟩ .f32 0x00000000#32))) W2
          : FVec Ideal ⟨2, ![E, N]⟩ .f32) e
      = linear (floorAt z0 (linear (floorAt z0 (linear (row x e) (mat W0))) (mat W1))) (mat W2) := by
  rw [row_dotGeneral d2 hd2, row_max_splatInDim, row_dotGeneral d1 hd1, row_max_splatInDim, row_dotGeneral d0 hd0]
  rfl

/-- The three layers' array times the edge weights, held as a column and spread over the lanes, is the
    specification's array: entry `(e, n)` is `edgeRow` of row `e` and weight `a e`, at `n`. -/
theorem mlp_weighted {E K H H' N : ℕ}
    (d0 : DotDims ⟨2, ![E, K]⟩ ⟨2, ![K, H]⟩ ⟨2, ![E, H]⟩) (hd0 : d0 = DotDims.plain E K H)
    (d1 : DotDims ⟨2, ![E, H]⟩ ⟨2, ![H, H']⟩ ⟨2, ![E, H']⟩) (hd1 : d1 = DotDims.plain E H H')
    (d2 : DotDims ⟨2, ![E, H']⟩ ⟨2, ![H', N]⟩ ⟨2, ![E, N]⟩) (hd2 : d2 = DotDims.plain E H' N)
    (p0 p1 p2 : Option ContractPrecision)
    (dm0 : Fin (⟨0, ![]⟩ : Shape).rank → Fin (⟨2, ![E, H]⟩ : Shape).rank)
    (b0 : (⟨0, ![]⟩ : Shape).BroadcastsInDim ⟨2, ![E, H]⟩ dm0)
    (dm1 : Fin (⟨0, ![]⟩ : Shape).rank → Fin (⟨2, ![E, H']⟩ : Shape).rank)
    (b1 : (⟨0, ![]⟩ : Shape).BroadcastsInDim ⟨2, ![E, H']⟩ dm1)
    (c1 : (⟨1, ![E]⟩ : Shape).BroadcastsInDim ⟨2, ![E, 1]⟩ ![0])
    (c2 : (⟨2, ![E, 1]⟩ : Shape).BroadcastsInDim ⟨2, ![E, N]⟩ ![0, 1])
    (x : FVec Ideal ⟨2, ![E, K]⟩ .f32) (W0 : FVec Ideal ⟨2, ![K, H]⟩ .f32) (W1 : FVec Ideal ⟨2, ![H, H']⟩ .f32)
    (W2 : FVec Ideal ⟨2, ![H', N]⟩ .f32) (a : FVec Ideal ⟨1, ![E]⟩ .f32) :
    mulf (Host.dotGeneral d2 p2
        (maximumf (Host.dotGeneral d1 p1
          (maximumf (Host.dotGeneral d0 p0 x W0 : FVec Ideal ⟨2, ![E, H]⟩ .f32)
            (broadcastInDim ⟨2, ![E, H]⟩ dm0 b0 (constant (F := Ideal) ⟨0, ![]⟩ .f32 0x00000000#32))) W1
            : FVec Ideal ⟨2, ![E, H']⟩ .f32)
          (broadcastInDim ⟨2, ![E, H']⟩ dm1 b1 (constant (F := Ideal) ⟨0, ![]⟩ .f32 0x00000000#32))) W2
          : FVec Ideal ⟨2, ![E, N]⟩ .f32)
      (broadcastInDim ⟨2, ![E, N]⟩ ![0, 1] c2 (broadcastInDim ⟨2, ![E, 1]⟩ ![0] c1 a))
      = weighted x W0 W1 W2 (vec a) := by
  funext i
  obtain ⟨e, n, rfl⟩ : ∃ (e : Fin E) (n : Fin N), i = ix2 e n := ⟨i 0, i 1, eq_ix2 i⟩
  rw [weighted_ix2]
  have hrow := congrFun (row_mlp d0 hd0 d1 hd1 d2 hd2 p0 p1 p2 dm0 b0 dm1 b1 x W0 W1 W2 e) n
  have hcol : broadcastInDim ⟨2, ![E, N]⟩ ![0, 1] c2 (broadcastInDim ⟨2, ![E, 1]⟩ ![0] c1 a) (ix2 e n) = vec a e := by
    rw [bid_cols, bid_col]
    rfl
  show _ * _ = _
  rw [hcol]
  exact congrArg (· * vec a e) hrow

/-- THE REFERENCE'S SPELLING, at its literal shapes: the operand of its final scatter is the specification's array
    of weighted scores. -/
theorem ref_weighted (x0 : FVec Ideal S320000x512 .f32) (x2 : FVec Ideal S320000 .f32) (x3 x4 : FVec Ideal S512x512 .f32)
    (x5 : FVec Ideal S512x64 .f32) :
    mulf (Host.dotGeneral dot_S320000x512_S512x64_S320000x64_1_0_0_1_n_n none
        (maximumf (Host.dotGeneral dot_S320000x512_S512x512_S320000x512_1_0_0_1_n_n none
          (maximumf (Host.dotGeneral dot_S320000x512_S512x512_S320000x512_1_0_0_1_n_n none x0 x3)
            (broadcastInDim S320000x512 ![] bcast_S_S320000x512 (constant (F := Ideal) S_ .f32 0x00000000#32))) x4)
          (broadcastInDim S320000x512 ![] bcast_S_S320000x512 (constant (F := Ideal) S_ .f32 0x00000000#32))) x5)
      (broadcastInDim S320000x64 ![0, 1] bcast_S320000x1_S320000x64_0_1 (broadcastInDim S320000x1 ![0] bcast_S320000_S320000x1_0 x2))
    = Cert.EdgeMlp.weighted x0 x3 x4 x5 (vec x2) :=
  mlp_weighted dot_S320000x512_S512x512_S320000x512_1_0_0_1_n_n rfl dot_S320000x512_S512x512_S320000x512_1_0_0_1_n_n rfl
    dot_S320000x512_S512x64_S320000x64_1_0_0_1_n_n rfl none none none ![] bcast_S_S320000x512 ![] bcast_S_S320000x512
    bcast_S320000_S320000x1_0 bcast_S320000x1_S320000x64_0_1 x0 x3 x4 x5 x2

end Cert.ReferenceIdeal.RefValue

end
-- ==== Proof.KernelPay.lean ====
/-
  The arithmetic of one block of rows, read one row at a time on the extended reals.

  The body forms, for a block `x` of R feature rows (K entries each), three weight matrices `W0 : K × H`,
  `W1 : H × H'`, `W2 : H' × N` and a column `a` of R edge weights, the array
      ((max ((max (x · W0) z) · W1) z) · W2) ∘ (a spread over the N lanes),
  every product accumulated into zeros, the changes of float format and the casts to the same shape in between
  being the identity on the extended reals. Row `r` of each product depends on row `r` of its left operand
  alone, the entrywise maximum and the entrywise product act row by row, and the spread column reads `a r` at every
  lane of row `r`: so entry `(r, n)` is `edgeRow` of row `r` of `x` and the weight `a r`, at `n`. No law
  of arithmetic is used: the same sums of the same products are formed.
-/
import proofs.«122593_j43413529428215_2_alg».proof.Proof.Gen.KernelIdeal.Skeleton
import proofs.«122593_j43413529428215_2_alg».proof.Proof.EdgeMlp
import proofs.«122593_j43413529428215_2_alg».proof.Proof.LibBlockRows

noncomputable section

namespace Cert.KernelIdeal.Pay

open Idealize.ShloMosaic Idealize.ShloMosaic.ValueIdx Cert.KernelIdeal Cert.KernelIdeal.Gen Cert.DenseRows
open Cert.LibLayerSum Cert.LibBlockRows

/-- Row `r` of a product into zeros whose left operand is a rectified array re-formatted and whose right operand
    is a matrix cast to its own shape: the row `floorAt z (row v r)` times the matrix. -/
theorem row_layer {R K N : ℕ} (d : DotDims ⟨2, ![R, K]⟩ ⟨2, ![K, N]⟩ ⟨2, ![R, N]⟩)
    (hd : d = DotDims.plain R K N) (prec : Option ContractPrecision) (hlt : FTy.bits .bf16 < FTy.bits .f32)
    (v : FVec Ideal ⟨2, ![R, K]⟩ .f32) (z : Ideal .f32) (w : FVec Ideal ⟨2, ![K, N]⟩ .bf16)
    (hc : (⟨2, ![K, N]⟩ : Shape).ShapeCasts ⟨2, ![K, N]⟩) (r : Fin R) :
    row (matmul d prec (truncf .bf16 (maximumf v (broadcast ⟨2, ![R, K]⟩ z)) hlt : FVec Ideal ⟨2, ![R, K]⟩ .bf16)
          (shapeCast ⟨2, ![K, N]⟩ w hc) (constant (F := Ideal) ⟨2, ![R, N]⟩ .f32 0x00000000#32)) r
      = linear (floorAt z (row v r)) (mat w) := by
  refine (row_matmul d hd prec _ _ r).trans ?_
  rw [mat_shapeCast_self]
  rfl

/-- Row `r` of the first product into zeros: the re-formatted feature row times the matrix. -/
theorem row_first {R K N : ℕ} (d : DotDims ⟨2, ![R, K]⟩ ⟨2, ![K, N]⟩ ⟨2, ![R, N]⟩)
    (hd : d = DotDims.plain R K N) (prec : Option ContractPrecision) (hlt : FTy.bits .bf16 < FTy.bits .f32)
    (x : FVec Ideal ⟨2, ![R, K]⟩ .f32) (w : FVec Ideal ⟨2, ![K, N]⟩ .bf16)
    (hc : (⟨2, ![K, N]⟩ : Shape).ShapeCasts ⟨2, ![K, N]⟩) (r : Fin R) :
    row (matmul d prec (truncf .bf16 x hlt : FVec Ideal ⟨2, ![R, K]⟩ .bf16)
          (shapeCast ⟨2, ![K, N]⟩ w hc) (constant (F := Ideal) ⟨2, ![R, N]⟩ .f32 0x00000000#32)) r
      = linear (row x r) (mat w) := by
  refine (row_matmul d hd prec _ _ r).trans ?_
  rw [mat_shapeCast_self]
  rfl

/-- Row `r` of the three products with the two rectifiers between them, at any extents. -/
theorem row_chain {R K H H' N : ℕ}
    (d1 : DotDims ⟨2, ![R, K]⟩ ⟨2, ![K, H]⟩ ⟨2, ![R, H]⟩) (hd1 : d1 = DotDims.plain R K H)
    (d2 : DotDims ⟨2, ![R, H]⟩ ⟨2, ![H, H']⟩ ⟨2, ![R, H']⟩) (hd2 : d2 = DotDims.plain R H H')
    (d3 : DotDims ⟨2, ![R, H']⟩ ⟨2, ![H', N]⟩ ⟨2, ![R, N]⟩) (hd3 : d3 = DotDims.plain R H' N)
    (p1 p2 p3 : Option ContractPrecision) (hlt : FTy.bits .bf16 < FTy.bits .f32)
    (x : FVec Ideal ⟨2, ![R, K]⟩ .f32) (w0 : FVec Ideal ⟨2, ![K, H]⟩ .bf16) (w1 : FVec Ideal ⟨2, ![H, H']⟩ .bf16)
    (w2 : FVec Ideal ⟨2, ![H', N]⟩ .bf16)
    (c0 : (⟨2, ![K, H]⟩ : Shape).ShapeCasts ⟨2, ![K, H]⟩) (c1 : (⟨2, ![H, H']⟩ : Shape).ShapeCasts ⟨2, ![H, H']⟩)
    (c2 : (⟨2, ![H', N]⟩ : Shape).ShapeCasts ⟨2, ![H', N]⟩) (z z' : Ideal .f32) (r : Fin R) :
    row (matmul d3 p3
          (truncf .bf16 (maximumf
            (matmul d2 p2
              (truncf .bf16 (maximumf
                (matmul d1 p1 (truncf .bf16 x hlt : FVec Ideal ⟨2, ![R, K]⟩ .bf16) (shapeCast ⟨2, ![K, H]⟩ w0 c0)
                  (constant (F := Ideal) ⟨2, ![R, H]⟩ .f32 0x00000000#32))
                (broadcast ⟨2, ![R, H]⟩ z)) hlt : FVec Ideal ⟨2, ![R, H]⟩ .bf16)
              (shapeCast ⟨2, ![H, H']⟩ w1 c1) (constant (F := Ideal) ⟨2, ![R, H']⟩ .f32 0x00000000#32))
            (broadcast ⟨2, ![R, H']⟩ z')) hlt : FVec Ideal ⟨2, ![R, H']⟩ .bf16)
          (shapeCast ⟨2, ![H', N]⟩ w2 c2) (constant (F := Ideal) ⟨2, ![R, N]⟩ .f32 0x00000000#32)) r
      = linear (floorAt z' (linear (floorAt z (linear (row x r) (mat w0))) (mat w1))) (mat w2) := by
  refine (row_layer d3 hd3 p3 hlt _ z' w2 c2 r).trans ?_
  refine congrArg (fun h => linear (floorAt z' h) (mat w2)) ?_
  refine (row_layer d2 hd2 p2 hlt _ z w1 c1 r).trans ?_
  refine congrArg (fun h => linear (floorAt z h) (mat w1)) ?_
  exact row_first d1 hd1 p1 hlt x w0 c0 r

/-- The first product's dimension numbers are the plain ones. -/
theorem dot1_plain : dot_S1000x512_S512x512_S1000x512_1_0_0_1_n_n = DotDims.plain 1000 512 512 := rfl

/-- The last product's dimension numbers are the plain ones. -/
theorem dot3_plain : dot_S1000x512_S512x128_S1000x128_1_0_0_1_n_n = DotDims.plain 1000 512 128 := rfl

/-- The zero word's value as a scalar is the rectifier's threshold. -/
theorem zero_scalar : (Scalar.ofBits (F := Ideal) .f32 0x00000000#32 : Ideal .f32) = Cert.EdgeMlp.z0 := rfl

/-- Entry `(r, n)` of the block's result is the weighted score `edgeRow` of row `r` of the feature block and the
    edge weight at `r`, at class `n`. -/
theorem pay_apply (v4 : Vec Ideal S1000x512 .f32) (v6 v12 : Vec Ideal S512x512 .bf16) (v18 : Vec Ideal S512x128 .bf16)
    (v22 : Vec Ideal S1000x1 .f32) (r : Fin 1000) (n : Fin 128) :
    k0_pay1 (F := Ideal) v4 v6 v12 v18 v22 (ix2 r n)
      = Cert.EdgeMlp.edgeRow (row v4 r) (mat v6) (mat v12) (mat v18) (v22 (ix2 r (0 : Fin 1))) n := by
  have hL := congrFun (row_chain dot_S1000x512_S512x512_S1000x512_1_0_0_1_n_n dot1_plain
      dot_S1000x512_S512x512_S1000x512_1_0_0_1_n_n dot1_plain
      dot_S1000x512_S512x128_S1000x128_1_0_0_1_n_n dot3_plain none none none bitsLt_bf16_f32 v4 v6 v12 v18
      shapeCasts_S512x512_S512x512 shapeCasts_S512x512_S512x512 shapeCasts_S512x128_S512x128
      (Scalar.ofBits (F := Ideal) .f32 0x00000000#32) (Scalar.ofBits (F := Ideal) .f32 0x00000000#32) r) n
  have hR : broadcastTo S1000x128 (shapeCast S1000x1 v22 shapeCasts_S1000x1_S1000x1)
      broadcasts_S1000x1_S1000x128 (ix2 r n) = v22 (ix2 r (0 : Fin 1)) := by
    rw [column_spread, shapeCast_self]
  exact congrArg₂ (· * ·) hL hR

end Cert.KernelIdeal.Pay

end
-- ==== Proof.KernelBlock.lean ====
/-
  What the kernel region leaves in its output array, on the extended reals.

  The region walks the 320000 edges in 80 blocks of 4000 rows; inside a block a loop of four trips handles 1000 rows
  at a time: it loads the chunk's rows of the feature block and of the edge-weight column and the three weight tiles
  whole, computes the chunk's payload, and stores it over rows `1000 k … 1000 k + 999` of the output block. By the
  payload's row form (KernelPay.lean) every stored entry `(r, n)` is the weighted score of the block's row
  `1000 k + r`, so each of the four stores holds the ONE block function `blockFn` on the rows it covers; the four
  stores tile the block, hence the block ends as `blockFn` of the point's input blocks. Block `t` of the output is
  rows `4000 t …`, and the input blocks at point `t` are the same rows of the features and of the weight column
  and the whole weight matrices, so what point `t` writes back is block `t` of one whole-array function `fullFn`;
  the 80 blocks tile the array, which therefore ends holding `fullFn`.
-/
import proofs.«122593_j43413529428215_2_alg».proof.Proof.Gen.KernelIdeal.Frame
import proofs.«122593_j43413529428215_2_alg».proof.Proof.EdgeMlp
import proofs.«122593_j43413529428215_2_alg».proof.Proof.KernelPay
import Idealize.ShloMosaic.Lib.Pipeline.Value
import Idealize.ShloMosaic.Lib.ValueIdx

set_option maxRecDepth 16384

noncomputable section

namespace Cert.KernelIdeal.Block

open Idealize.ShloMosaic Idealize.ShloMosaic.TcCoe Idealize.ShloMosaic.ValueIdx Idealize.SL.Sem
open Cert.KernelIdeal Cert.KernelIdeal.Gen Cert.DenseRows Cert.EdgeMlp
open Idealize.ShloMosaic.Pipeline (Dat)

/-- What one grid point leaves in its 4000-row output block, as a function of the point's input blocks: row `r`
    of the block is the weighted score row of row `r` of the feature block and entry `r` of the weight column. -/
abbrev blockFn (x0 : Vec Ideal S4000x512 .f32) (x1 x2 : Vec Ideal S512x512 .bf16) (x3 : Vec Ideal S512x128 .bf16)
    (x4 : Vec Ideal S4000x1 .f32) : S4000x128.Idx → EReal :=
  weighted x0 x1 x2 x3 (fun r => x4 (ix2 r (0 : Fin 1)))

/-- A chunk's payload at `(r, n)` is the block function at the block index `y` the chunk's rectangle places
    `(r, n)` at, as soon as the chunk's loads read the block's rows there. -/
theorem pay_eq_blockFn (x0 : Vec Ideal S4000x512 .f32) (x1 x2 : Vec Ideal S512x512 .bf16) (x3 : Vec Ideal S512x128 .bf16)
    (x4 : Vec Ideal S4000x1 .f32) (v4 : Vec Ideal S1000x512 .f32) (v6 v12 : Vec Ideal S512x512 .bf16)
    (v18 : Vec Ideal S512x128 .bf16) (v22 : Vec Ideal S1000x1 .f32) (r : Fin 1000) (n : Fin 128) (y : S4000x128.Idx)
    (h4 : ∀ kk : Fin 512, v4 (ix2 r kk) = x0 (ix2 (y 0) kk)) (h6 : v6 = x1) (h12 : v12 = x2) (h18 : v18 = x3)
    (h22 : v22 (ix2 r (0 : Fin 1)) = x4 (ix2 (y 0) (0 : Fin 1))) (hn : (y 1).val = n.val) :
    k0_pay1 (F := Ideal) v4 v6 v12 v18 v22 (ix2 r n) = blockFn x0 x1 x2 x3 x4 y := by
  subst h6 h12 h18
  rw [Cert.KernelIdeal.Pay.pay_apply]
  have hrow : row v4 r = row x0 (y 0) := funext h4
  have e : blockFn x0 v6 v12 v18 x4 y
      = edgeRow (row x0 (y 0)) (mat v6) (mat v12) (mat v18) (x4 (ix2 (y 0) (0 : Fin 1))) (y 1) := rfl
  rw [e, ← hrow, ← h22]
  exact congrArg _ (Fin.ext hn.symm)

theorem hz2 : (![0, 0] : Fin 2 → Nat) = fun _ => 0 := funext fun a => by fin_cases a <;> rfl

section Pieces

variable (c : Dev nD) (i : grid0.Coords)
  (arg1 : Memref sig .tc .vmem S4000x512 .f32) (harg1 : arg1.IsWhole) (arg2 : Memref sig .tc .vmem S512x512 .bf16) (harg2 : arg2.IsWhole)
  (arg3 : Memref sig .tc .vmem S512x512 .bf16) (harg3 : arg3.IsWhole) (arg4 : Memref sig .tc .vmem S512x128 .bf16) (harg4 : arg4.IsWhole)
  (arg5 : Memref sig .tc .vmem S4000x1 .f32) (harg5 : arg5.IsWhole) (arg6 : Memref sig .tc .vmem S4000x128 .f32) (harg6 : arg6.IsWhole)
  (x0 : Vec Ideal S4000x512 .f32) (x1 x2 : Vec Ideal S512x512 .bf16) (x3 : Vec Ideal S512x128 .bf16) (x4 : Vec Ideal S4000x1 .f32)

/-- The one store of trip `k` (rows `1000 k … 1000 k + 999` of the block) holds the block function there. -/
theorem trip_piece (k : Fin k0_t1_loop.trips) :
    ∀ p ∈ tripL_k0_t1 (F := Ideal) Variants.none c none i arg1 harg1 arg2 harg2 arg3 harg3 arg4 harg4 arg5 harg5 arg6 harg6
        (harg1.unread x0) (harg2.unread x1) (harg3.unread x2) (harg4.unread x3) (harg5.unread x4) k,
      ∀ x : p.1.shape.Idx, p.2 x = blockFn x0 x1 x2 x3 x4 (p.1.emb x) := by
  intro p hp
  unfold tripL_k0_t1 trip_k0_t1 at hp
  dsimp only at hp
  rw [List.mem_singleton] at hp
  subst hp
  intro x
  dsimp only
  obtain ⟨r, n, rfl⟩ : ∃ (r : Fin 1000) (n : Fin 128), x = ix2 r n := ⟨x 0, x 1, eq_ix2 x⟩
  refine pay_eq_blockFn x0 x1 x2 x3 x4 _ _ _ _ _ r n _ ?h4 ?h6 ?h12 ?h18 ?h22 ?hn
  case h4 =>
    intro kk
    rw [View.readAt_eq_ld, harg1.read_unread]
    show x0 ((Rect.unit (s := S4000x512) (k0_off1 k) ![1000, 512] (k0_off1_inb k)).idx (ix2 r kk)) = _
    refine congrArg x0 (funext fun a => Fin.ext ?_)
    match a with
    | ⟨0, _⟩ =>
      show (k0_off1 k) 0 + 1 * r.val = (k0_off3 k) 0 + 1 * r.val
      rw [k0_off1_eq, k0_off3_eq]
    | ⟨1, _⟩ =>
      show (k0_off1 k) 1 + 1 * kk.val = kk.val
      rw [k0_off1_eq]; simp
  case h6 => rw [View.readAt_eq_ld, harg2.read_unread]; exact View.ld_unit_zero hz2 _ x1
  case h12 => rw [View.readAt_eq_ld, harg3.read_unread]; exact View.ld_unit_zero hz2 _ x2
  case h18 => rw [View.readAt_eq_ld, harg4.read_unread]; exact View.ld_unit_zero hz2 _ x3
  case h22 =>
    rw [View.readAt_eq_ld, harg5.read_unread]
    show x4 ((Rect.unit (s := S4000x1) (k0_off2 k) ![1000, 1] (k0_off2_inb k)).idx (ix2 r (0 : Fin 1))) = _
    refine congrArg x4 (funext fun a => Fin.ext ?_)
    match a with
    | ⟨0, _⟩ =>
      show (k0_off2 k) 0 + 1 * r.val = (k0_off3 k) 0 + 1 * r.val
      rw [k0_off2_eq, k0_off3_eq]
    | ⟨1, _⟩ =>
      show (k0_off2 k) 1 + 1 * 0 = 0
      rw [k0_off2_eq]; simp
  case hn =>
    show (k0_off3 k) 1 + 1 * n.val = n.val
    rw [k0_off3_eq]; simp

/-- Every store of the trips before `n` holds the block function on its rows. -/
theorem pb_pieces (n : ℕ) :
    ∀ p ∈ pb_k0_t1 (F := Ideal) Variants.none c none i arg1 harg1 arg2 harg2 arg3 harg3 arg4 harg4 arg5 harg5 arg6 harg6
        (harg1.unread x0) (harg2.unread x1) (harg3.unread x2) (harg4.unread x3) (harg5.unread x4) n,
      ∀ x : p.1.shape.Idx, p.2 x = blockFn x0 x1 x2 x3 x4 (p.1.emb x) := by
  induction n with
  | zero => intro p hp; rw [pb_k0_t1.eq_1] at hp; exact absurd hp List.not_mem_nil
  | succ n ih =>
    intro p hp
    rw [pb_k0_t1.eq_2] at hp
    unfold pb_k0_t1Step at hp
    split at hp
    · rename_i h
      rcases List.mem_append.mp hp with hp | hp
      · exact trip_piece c i arg1 harg1 arg2 harg2 arg3 harg3 arg4 harg4 arg5 harg5 arg6 harg6 x0 x1 x2 x3 x4 ⟨n, h⟩ p hp
      · exact ih p hp
    · exact ih p hp

/-- WHAT ONE GRID POINT LEAVES in its output block: the block function of its input blocks — the four chunks'
    stores tile the block, and each holds the block function on its rows. -/
theorem out_eq :
    out0_A_5 (F := Ideal) c i arg1 harg1 arg2 harg2 arg3 harg3 arg4 harg4 arg5 harg5 arg6 harg6 x0 x1 x2 x3 x4
      = blockFn x0 x1 x2 x3 x4 := by
  unfold out0_A_5
  rw [View.read_writes_junk_eq_canon]
  funext y
  refine View.canon_apply_of_pieces (blockFn x0 x1 x2 x3 x4) _ ?_ y
    (cover0_A_5 c i arg1 harg1 arg2 harg2 arg3 harg3 arg4 harg4 arg5 harg5 arg6 harg6 x0 x1 x2 x3 x4 y)
  intro p hp
  unfold kernelRun0_A at hp
  exact pb_pieces c i arg1 harg1 arg2 harg2 arg3 harg3 arg4 harg4 arg5 harg5 arg6 harg6 x0 x1 x2 x3 x4 _ p hp

end Pieces

section Array

variable (m : (ℓ : Loc nD τ sig) → Buf (Elt Ideal) ℓ)

/-- The kernel's whole output array, as one function of the arrays the region finds: entry `(e, n)` is the weighted
    score of edge `e`'s feature row, through the three weight arrays as staged, times edge `e`'s weight. -/
abbrev fullFn (c : Dev nD) : S320000x128.Idx → EReal :=
  weighted (V m c main_arg0) (V m c main_v0) (V m c main_v1) (V m c main_v3) (fun e => V m c main_v4 (ix2 e (0 : Fin 1)))

/-- The printed index maps over the grid: the row-blocked windows (features, weights column, output) sit at block
    `t` along the rows and block 0 along the lanes; the weight matrices always at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What the body leaves at point `t`: the block function of the point's input blocks. -/
theorem outsAt_eq (c : Dev nD) (t : Fin cfg0.N) :
    outsAt0 m c t = blockFn (iblk m c 0 t) (iblk m c 1 t) (iblk m c 2 t) (iblk m c 3 t) (iblk m c 4 t) := by
  unfold outsAt0
  exact out_eq c (grid0.coords t) (ms0_0 t) (hs0_0 t) (ms0_1 t) (hs0_1 t) (ms0_2 t) (hs0_2 t) (ms0_3 t) (hs0_3 t)
    (ms0_4 t) (hs0_4 t) (ms0_5 t) (hs0_5 t) (iblk m c 0 t) (iblk m c 1 t) (iblk m c 2 t) (iblk m c 3 t) (iblk m c 4 t)

/-- WHAT POINT `t` WRITES BACK is block `t` of `fullFn`: rows `4000 t …` of the features and of the weight column
    are the rows the point's blocks hold, and the weight matrices are whole. -/
theorem flushed_eq (c : Dev nD) (t : Fin cfg0.N) :
    (dats m 0 c).flushed 5 t = ((cfg0.win 5).blk t).view.read (Elt Ideal) (fullFn m c) := by
  show (cfg0.win 5).cut (grid0.coords t) ((dats m 0 c).after 5 t) = _
  rw [after0_5, outsAt_eq]
  obtain ⟨e00, e01, e10, e11, e20, e21, e30, e31, e40, e41, e50, e51⟩ := idx_facts t
  funext j
  show blockFn (iblk m c 0 t) (iblk m c 1 t) (iblk m c 2 t) (iblk m c 3 t) (iblk m c 4 t) j
      = fullFn m c (((cfg0.win 5).blk t).view.emb j)
  refine weighted_congr (iblk m c 0 t) (iblk m c 1 t) (iblk m c 2 t) (iblk m c 3 t) (fun r => iblk m c 4 t (ix2 r (0 : Fin 1)))
    (V m c main_arg0) (V m c main_v0) (V m c main_v1) (V m c main_v3) (fun e => V m c main_v4 (ix2 e (0 : Fin 1)))
    j (((cfg0.win 5).blk t).view.emb j) ?hx ?h0 ?h1 ?h2 ?hea ?hn
  case hx =>
    intro kk
    show V m c main_arg0 (((cfg0.win 0).blk t).view.emb (ix2 (j 0) kk)) = _
    refine congrArg (V m c main_arg0) (funext fun a => Fin.ext ?_)
    match a with
    | ⟨0, _⟩ =>
      show win0_0.index t (0 : Fin 2) * 4000 + 1 * (j 0).val = win0_5.index t (0 : Fin 2) * 4000 + 1 * (j 0).val
      rw [e00, e50]
    | ⟨1, _⟩ =>
      show win0_0.index t (1 : Fin 2) * 512 + 1 * kk.val = kk.val
      rw [e01]; simp
  case h0 =>
    funext k kk
    show V m c main_v0 (((cfg0.win 1).blk t).view.emb (ix2 k kk)) = V m c main_v0 (ix2 k kk)
    refine congrArg (V m c main_v0) (funext fun a => Fin.ext ?_)
    match a with
    | ⟨0, _⟩ => show win0_1.index t (0 : Fin 2) * 512 + 1 * k.val = k.val; rw [e10]; simp
    | ⟨1, _⟩ => show win0_1.index t (1 : Fin 2) * 512 + 1 * kk.val = kk.val; rw [e11]; simp
  case h1 =>
    funext k kk
    show V m c main_v1 (((cfg0.win 2).blk t).view.emb (ix2 k kk)) = V m c main_v1 (ix2 k kk)
    refine congrArg (V m c main_v1) (funext fun a => Fin.ext ?_)
    match a with
    | ⟨0, _⟩ => show win0_2.index t (0 : Fin 2) * 512 + 1 * k.val = k.val; rw [e20]; simp
    | ⟨1, _⟩ => show win0_2.index t (1 : Fin 2) * 512 + 1 * kk.val = kk.val; rw [e21]; simp
  case h2 =>
    funext k kk
    show V m c main_v3 (((cfg0.win 3).blk t).view.emb (ix2 k kk)) = V m c main_v3 (ix2 k kk)
    refine congrArg (V m c main_v3) (funext fun a => Fin.ext ?_)
    match a with
    | ⟨0, _⟩ => show win0_3.index t (0 : Fin 2) * 512 + 1 * k.val = k.val; rw [e30]; simp
    | ⟨1, _⟩ => show win0_3.index t (1 : Fin 2) * 128 + 1 * kk.val = kk.val; rw [e31]; simp
  case hea =>
    show V m c main_v4 (((cfg0.win 4).blk t).view.emb (ix2 (j 0) (0 : Fin 1))) = _
    refine congrArg (V m c main_v4) (funext fun a => Fin.ext ?_)
    match a with
    | ⟨0, _⟩ =>
      show win0_4.index t (0 : Fin 2) * 4000 + 1 * (j 0).val = win0_5.index t (0 : Fin 2) * 4000 + 1 * (j 0).val
      rw [e40, e50]
    | ⟨1, _⟩ => show win0_4.index t (1 : Fin 2) * 1 + 1 * 0 = 0; rw [e41]
  case hn =>
    show (j 1).val = win0_5.index t (1 : Fin 2) * 128 + 1 * (j 1).val
    rw [e51]; simp

/-- An index of the output array is in point `t`'s block iff each coordinate is in the block's range on its axis. -/
theorem mem_blk (t : Fin cfg0.N) (i : S320000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v5).slice (win0_5.rect t)).set ↔ _
  rw [View.set_slice_whole, Rect.mem_set_unit]
  exact Iff.rfl

/-- The eighty blocks of 4000 rows tile the 320000 rows: row `e` is in block `e / 4000`. -/
theorem cover (i : S320000x128.Idx) :
    ∃ t : Fin cfg0.N, (cfg0.win 5).flush t = true ∧ i ∈ ((cfg0.win 5).blk t).view.set := by
  have hi0 : (i 0).val < 320000 := (i 0).isLt
  have hi1 : (i 1).val < 128 := (i 1).isLt
  have hN : cfg0.N = 80 := N_0
  let t : Fin cfg0.N := ⟨(i 0).val / 4000, by rw [hN]; omega⟩
  obtain ⟨-, -, -, -, -, -, -, -, -, -, e50, e51⟩ := idx_facts t
  have et : t.val = (i 0).val / 4000 := rfl
  refine ⟨t, flush0_5 t, ?_⟩
  rw [mem_blk]
  intro a
  match a with
  | ⟨0, _⟩ =>
    show win0_5.index t (0 : Fin 2) * 4000 ≤ (i 0).val ∧ (i 0).val < win0_5.index t (0 : Fin 2) * 4000 + 4000
    rw [e50, et]; omega
  | ⟨1, _⟩ =>
    show win0_5.index t (1 : Fin 2) * 128 ≤ (i 1).val ∧ (i 1).val < win0_5.index t (1 : Fin 2) * 128 + 128
    rw [e51]; omega

/-- THE OUTPUT ARRAY after the region: `fullFn` of the arrays the region found. -/
theorem final (c : Dev nD) : (dats m 0 c).arrAt 5 cfg0.N = fullFn m c :=
  (dats m 0 c).arrAt_eq_of_cover 5 (fullFn m c) (fun t _ => flushed_eq m c t) cover

end Array
end Cert.KernelIdeal.Block
end
-- ==== Proof.HostSide.lean ====
/-
  The host side of the kernel program, read at the extended reals.

  Before its one kernel region the program prepares four operands on the host: the first two weight matrices with
  their float format changed, the third weight matrix padded on the right with 64 columns of a constant and its
  format changed, and the vector of edge weights re-read as a column. A change of float format is the identity on
  the extended reals, a pad read inside the operand is the operand, and a reshape of [E] to [E, 1] reads entry e at
  (e, 0); so each prepared operand is an argument array, as a function of its index. After the region the program
  keeps the first 64 columns of the region's output and scatter-adds the rows into a zero array at the indices of
  the first row of the index argument; the result buffer is that composed term over the memory at launch and the
  region's output array.
-/
import proofs.«122593_j43413529428215_2_alg».proof.Proof.Gen.KernelIdeal.Frame
import proofs.«122593_j43413529428215_2_alg».proof.Proof.EdgeMlp
import proofs.«122593_j43413529428215_2_alg».proof.Proof.LibLayoutRead
import Idealize.ShloMosaic.Lib.KernelVsHost

noncomputable section

namespace Cert.KernelIdeal.HostSide
open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The first weight matrix as the region finds it: the argument array itself, since a change of float format is
    the identity on the extended reals. -/
theorem V_main_v0 (c : Dev nD) :
    (V m c main_v0 : S512x512.Idx → EReal) = (m ((c : Thread nD τ).loc main_arg3) : S512x512.Idx → EReal) := by
  dsimp only [Gen.V, Gen.V0]
  simp only [Gen.hostOps0, Gen.hostOps0_1, Gen.hostOps0_2, List.flatten_cons, List.flatten_nil, List.append_nil,
    List.cons_append, List.nil_append]
  after_results
  rfl

/-- The second weight matrix as the region finds it: the argument array itself. -/
theorem V_main_v1 (c : Dev nD) :
    (V m c main_v1 : S512x512.Idx → EReal) = (m ((c : Thread nD τ).loc main_arg4) : S512x512.Idx → EReal) := by
  dsimp only [Gen.V, Gen.V0]
  simp only [Gen.hostOps0, Gen.hostOps0_1, Gen.hostOps0_2, List.flatten_cons, List.flatten_nil, List.append_nil,
    List.cons_append, List.nil_append]
  after_results
  rfl

/-- The third weight matrix as the region finds it is the argument padded on the right to 128 columns: its first 64
    columns are the argument's. Entry (k, n) with n < 64 lies inside the operand of the pad (no low padding, no
    interior padding), so the pad reads the operand at (k, n). -/
theorem V_main_v3_apply (c : Dev nD) (k : Fin 512) (n : Fin 64) :
    (V m c main_v3 : S512x128.Idx → EReal) (ix2 k (Fin.castLE (by decide : 64 ≤ 128) n))
      = (m ((c : Thread nD τ).loc main_arg5) : S512x64.Idx → EReal) (ix2 k n) := by
  dsimp only [Gen.V, Gen.V0]
  simp only [Gen.hostOps0, Gen.hostOps0_1, Gen.hostOps0_2, List.flatten_cons, List.flatten_nil, List.append_nil,
    List.cons_append, List.nil_append]
  after_results
  show pad S512x128 ![0, 0] ![0, 64] ![0, 0] (m ((c : Thread nD τ).loc main_arg5) : S512x64.Idx → EReal)
      (sitofp (F := Ideal) .f32 (constantI S_ 32 0#32)) pads_S512x64_S512x128_000_0640 h_S_
      (ix2 k (Fin.castLE (by decide : 64 ≤ 128) n)) = _
  refine pad_apply_of_inside _ _ _ _ _ _ _ _ (ix2 k n) fun a => ?_
  match a with
  | ⟨0, _⟩ => show k.val = 0 + k.val * (0 + 1); omega
  | ⟨1, _⟩ => show n.val = 0 + n.val * (0 + 1); omega

/-- The edge weights as the region finds them are the argument vector re-read as a column: entry (e, 0) is entry e,
    both sitting at row-major position e. -/
theorem V_main_v4_apply (c : Dev nD) (e : Fin 320000) :
    (V m c main_v4 : S320000x1.Idx → EReal) (ix2 e (0 : Fin 1))
      = (m ((c : Thread nD τ).loc main_arg2) : S320000.Idx → EReal) (ix1 e) := by
  dsimp only [Gen.V, Gen.V0]
  simp only [Gen.hostOps0, Gen.hostOps0_1, Gen.hostOps0_2, List.flatten_cons, List.flatten_nil, List.append_nil,
    List.cons_append, List.nil_append]
  after_results
  show shapeCast S320000x1 (m ((c : Thread nD τ).loc main_arg2) : S320000.Idx → EReal) shapeCasts_S320000_S320000x1
      (ix2 e (0 : Fin 1)) = _
  exact Cert.LayoutRead.cast_col _ _ e 0

/-- The slice that keeps all rows and the first 64 of 128 columns reads, at (e, n), the operand at (e, n). -/
theorem slice_apply (A : S320000x128.Idx → EReal) (e : Fin 320000) (n : Fin 64) :
    extractStridedSlice S320000x64 ![0, 0] A slices_S320000x128_S320000x64_0_0 (ix2 e n)
      = A (ix2 e (Fin.castLE (by decide : 64 ≤ 128) n)) :=
  slice2_axis1_apply 0 A slices_S320000x128_S320000x64_0_0 e n _ (Nat.zero_add _).symm

/-- The result buffer after the seven host operations that follow the region: the scatter-add, into the zero array,
    of the first 64 columns of the region's output array, at the indices given by the first row of the index
    argument (cut out, re-read as a vector, and spread to a column). The region's output is read where the region
    left it; the index argument is written by no operation before or after the region, so it is as launched. -/
theorem tail_result (c : Dev nD) :
    Pipeline.afterTail₀ cfgs (dats m) 0 (V0 m) [hostOps1] c main_v11
      = Host.scatterAdd scatter_S10000x64_S320000x1_S320000x64_1_0_0_1
          (broadcastInDim S10000x64 ![] bcast_S_S10000x64 (constant (F := Ideal) S_ .f32 0x00000000#32))
          (broadcastInDim S320000x1 ![0] bcast_S320000_S320000x1_0
            (shapeCast S320000 (extractStridedSlice S1x320000 ![0, 0] (m ((c : Thread nD τ).loc main_arg1)) slices_S2x320000_S1x320000_0_0) shapeCasts_S1x320000_S320000))
          (extractStridedSlice S320000x64 ![0, 0] ((dats m 0 c).arrAt 5 cfg0.N) slices_S320000x128_S320000x64_0_0) := by
  -- the region's output array, read back where the region left it
  have h5 : Pipeline.withArrays (cfgs 0).spec c (V0 m c) (fun w => (dats m 0 c).arrAt w (cfgs 0).N)
      (Proc.devRef .tc main_v5) = (dats m 0 c).arrAt 5 cfg0.N :=
    Pipeline.withArrays_arr spec0 launch0.win.arr_inj c _ _ 5
  -- the index argument is no array of the region and no host operation before the region writes it
  have h1 : Pipeline.withArrays (cfgs 0).spec c (V0 m c) (fun w => (dats m 0 c).arrAt w (cfgs 0).N)
      (Proc.devRef .tc main_arg1) = m ((c : Thread nD τ).loc main_arg1) :=
    (Pipeline.withArrays_of_ne _ c (V0 m c) _ main_arg1
      (by exact (by decide : ∀ w, Pipeline.arrRef spec0 w ≠ main_arg1))).trans (Gen.V_main_arg1 m c)
  unfold Pipeline.afterTail₀
  simp only [Gen.hostOps1, List.flatten_cons, List.flatten_nil, List.append_nil]
  after_results
  rw [h5, h1]
  rfl

end Cert.KernelIdeal.HostSide
end
-- ==== Proof.KernelRun.lean ====
/-
  The idealized kernel program's run, read back as one term of its arguments.

  The region leaves `fullFn` in its 128-column output array (KernelBlock.lean); the host then keeps the first 64
  columns and scatter-adds the rows into a zero array at the edges' source indices (HostSide.lean). The columns kept
  are the weighted scores computed with the UNPADDED third weight matrix, because column `n < 64` of the padded
  matrix is column `n` of the matrix, and the staged operands are the argument arrays themselves. So the result
  buffer ends at the scatter-add of `weighted x W0 W1 W2 edge_attr`, the same array the reference scatters.
-/
import proofs.«122593_j43413529428215_2_alg».proof.Proof.KernelBlock
import proofs.«122593_j43413529428215_2_alg».proof.Proof.HostSide

noncomputable section

namespace Cert.KernelIdeal.KValue

open Idealize.ShloMosaic Idealize.ShloMosaic.TcCoe Idealize.ShloMosaic.ValueIdx Idealize.SL.Sem
open Cert.KernelIdeal Cert.KernelIdeal.Gen Cert.DenseRows Cert.EdgeMlp

variable (m : (ℓ : Loc nD τ sig) → Buf (Elt Ideal) ℓ) (ρ : Dev nD → PrngReg)

/-- The first 64 columns of the region's output array are the weighted scores of the ARGUMENT arrays: the staged
    weight matrices are the arguments (a change of float format is the identity), the staged column is the weight
    vector, and the 64 columns kept are the columns of the unpadded third matrix. -/
theorem slice_final (c : Dev nD) :
    extractStridedSlice S320000x64 ![0, 0] ((dats m 0 c).arrAt 5 cfg0.N) slices_S320000x128_S320000x64_0_0
      = weighted (m ((c : Thread nD τ).loc main_arg0) : S320000x512.Idx → EReal)
          (m ((c : Thread nD τ).loc main_arg3) : S512x512.Idx → EReal)
          (m ((c : Thread nD τ).loc main_arg4) : S512x512.Idx → EReal)
          (m ((c : Thread nD τ).loc main_arg5) : S512x64.Idx → EReal)
          (vec (m ((c : Thread nD τ).loc main_arg2) : S320000.Idx → EReal)) := by
  funext i
  obtain ⟨e, n, rfl⟩ : ∃ (e : Fin 320000) (n : Fin 64), i = ix2 e n := ⟨i 0, i 1, eq_ix2 i⟩
  rw [Cert.KernelIdeal.HostSide.slice_apply, Cert.KernelIdeal.Block.final m c]
  show edgeRow (row (V m c main_arg0) e) (mat (V m c main_v0)) (mat (V m c main_v1)) (mat (V m c main_v3))
      (V m c main_v4 (ix2 e (0 : Fin 1))) (Fin.castLE (by decide : 64 ≤ 128) n) = _
  rw [Gen.V_main_arg0 m c, Cert.KernelIdeal.HostSide.V_main_v0 m c, Cert.KernelIdeal.HostSide.V_main_v1 m c,
    Cert.KernelIdeal.HostSide.V_main_v4_apply m c e, weighted_ix2]
  exact edgeRow_congr_col _ _ _ _ _ _ n _ (fun k => Cert.KernelIdeal.HostSide.V_main_v3_apply m c k n)

/-- The program's result as one term of the memory at launch: the scatter-add, into the zero array, of every edge's
    weighted score row at the edge's source index (the first row of the index argument). -/
abbrev result (c : Dev nD) : Buf (Elt Ideal) ((c.tc : Thread nD τ).loc main_v11) :=
  Host.scatterAdd scatter_S10000x64_S320000x1_S320000x64_1_0_0_1
    (broadcastInDim S10000x64 ![] bcast_S_S10000x64 (constant (F := Ideal) S_ .f32 0x00000000#32))
    (broadcastInDim S320000x1 ![0] bcast_S320000_S320000x1_0
      (shapeCast S320000 (extractStridedSlice S1x320000 ![0, 0] (m ((c : Thread nD τ).loc main_arg1)) slices_S2x320000_S1x320000_0_0) shapeCasts_S1x320000_S320000))
    (weighted (m ((c : Thread nD τ).loc main_arg0) : S320000x512.Idx → EReal)
      (m ((c : Thread nD τ).loc main_arg3) : S512x512.Idx → EReal)
      (m ((c : Thread nD τ).loc main_arg4) : S512x512.Idx → EReal)
      (m ((c : Thread nD τ).loc main_arg5) : S512x64.Idx → EReal)
      (vec (m ((c : Thread nD τ).loc main_arg2) : S320000.Idx → EReal)))

/-- THE KERNEL PROGRAM'S RUN, READ: every weakly fair execution terminates with the result buffer at `result` and
    the six arguments as launched. The result buffer is written by the host operations after the region, from the
    region's output array; a staged input array ends as the region found it; the other arguments are touched by
    no host operation. -/
theorem run : θ_run defs (onTc (τ := τ) (main (F := Ideal))) ⟨m, fun _ => 0, ρ⟩ fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v11 (Pipeline.mem_restRefs_of main_v11 (by decide) (by decide))).trans
        ((Cert.KernelIdeal.HostSide.tail_result m c).trans (by rw [slice_final m c])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue
end
-- ==== Proof.lean ====
/-
  The certificate of the per-edge three-layer perceptron with a scatter-sum by source node.

  Both programs compute, for every edge `e`, the row
      n ↦ (∑ k'', max (∑ k', max (∑ k, x e k * W0 k k') 0 * W1 k' k'') 0 * W2 k'' n) * edge_attr e
  and add the rows into a zero array at the edge's source index. The kernel program does the rows in 80 blocks of
  4000 edges, each block in four chunks of 1000, with the weights converted to a narrower float format and the last
  matrix padded to 128 columns of which the host keeps the first 64; the reference does all rows at once. On the
  extended reals a change of float format is the identity and the padding columns are cut away again, so the two
  arrays of rows are the same function of the arguments, entry by entry (`Cert.EdgeMlp.weighted`), with the same
  sums of the same products on both sides: no law of arithmetic beyond that is used, and the precondition (finite
  inputs) is never opened. The final scatter-add is one operation applied to equal operands.

  The three frame claims are the generated frame runs (the reference's is its generated run with the result
  dropped); the idealization rewrote no operation, so `preserves` is trivial.
-/
import proofs.«122593_j43413529428215_2_alg».proof.Defs
import proofs.«122593_j43413529428215_2_alg».proof.Proof.Gen.Kernel
import proofs.«122593_j43413529428215_2_alg».proof.Proof.Gen.Kernel.Frame
import proofs.«122593_j43413529428215_2_alg».proof.Proof.Gen.KernelIdeal
import proofs.«122593_j43413529428215_2_alg».proof.Proof.Gen.KernelIdeal.Frame
import proofs.«122593_j43413529428215_2_alg».proof.Proof.Gen.ReferenceIdeal
import proofs.«122593_j43413529428215_2_alg».proof.Proof.Gen.ReferenceIdeal.Run
import proofs.«122593_j43413529428215_2_alg».proof.Proof.Gen.Pre_finite_inputs
import proofs.«122593_j43413529428215_2_alg».proof.Proof.RefSide
import proofs.«122593_j43413529428215_2_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read on the extended reals. -/
theorem preserves : Cert.preserves_Kernel_KernelIdeal := trivial

/-- From memories agreeing on the arguments both programs end with the result at the scatter-add of the same array
    of weighted score rows: the kernel program by its run read back (KernelRun.lean), the reference by its
    generated run, whose scattered operand is that array (RefSide.lean). -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2,
    Cert.ReferenceIdeal.RefValue.ref_weighted]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
